-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 26
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x128, .bf16⟩
  | .hbm, ⟨24, _⟩ => ⟨S128x128, .bf16⟩
  | .hbm, ⟨25, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelPayload.lean ====
/-
  The kernel body's arithmetic at one element of a block.

  The body computes, on a block of 5000 node rows, two dense layers with a rectifier between them. Each dense layer
  is a matrix product into a zero accumulator plus a bias row broadcast over the rows; read at row `p`, column `q` it
  is `(∑ k, A p k · B k q) + b q`. The roundings to the narrow format on the way into each product are the identity
  on extended reals, and the casts of a block to its own shape are the identity.
-/
import proofs.«110424_j80711025426654_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The block product's dimension numbers: rows of the left operand against columns of the right, one contracted axis. -/
abbrev D := dot_S5000x128_S128x128_S5000x128_1_0_0_1_n_n

theorem lhs_row (i : S5000x128.Idx) (u : D.contr.Idx) : (D.lhsIdx i u 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_col (i : S5000x128.Idx) (u : D.contr.Idx) : (D.lhsIdx i u 1).val = (u ⟨0, by decide⟩).val :=
  D.lhsIdx_val_of_single rfl i u
theorem rhs_row (i : S5000x128.Idx) (u : D.contr.Idx) : (D.rhsIdx i u 0).val = (u ⟨0, by decide⟩).val :=
  D.rhsIdx_val_of_single rfl i u
theorem rhs_col (i : S5000x128.Idx) (u : D.contr.Idx) : (D.rhsIdx i u 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The block product into a zero accumulator, at row `p` and column `q`: the sum over the contracted coordinate. -/
theorem product_apply (A : FVec Ideal S5000x128 .bf16) (B : FVec Ideal S128x128 .bf16) (p : Fin 5000) (q : Fin 128) :
    matmul D none A B (constant S5000x128 .f32 0x00000000#32) (ix2 p q) = ∑ k : Fin 128, A (ix2 p k) * B (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [el, er]

/-- One dense layer of the body: the product into zero, plus the bias row spread over the block's rows. -/
def layer (A : FVec Ideal S5000x128 .bf16) (B : FVec Ideal S128x128 .bf16) (b : FVec Ideal S128 .f32) : FVec Ideal S5000x128 .f32 :=
  addf (matmul D none A B (constant S5000x128 .f32 0x00000000#32))
    (broadcastTo S5000x128 (shapeCast S1x128 b Facts₀.shapeCasts_S128_S1x128) Facts₀.broadcasts_S1x128_S5000x128)

theorem layer_apply (A : FVec Ideal S5000x128 .bf16) (B : FVec Ideal S128x128 .bf16) (b : FVec Ideal S128 .f32) (p : Fin 5000) (q : Fin 128) :
    layer A B b (ix2 p q) = (∑ k : Fin 128, A (ix2 p k) * B (ix2 k q)) + b (ix1 q) := by
  unfold layer
  rw [addf_apply, product_apply, broadcastTo_1b_ab_apply, shapeCast_a_1a_apply]

/-- The body's stored value is the second layer of the rectified first layer of the two loaded row blocks added. -/
theorem pay_eq (x0 x1 : Vec Ideal S5000x128 .f32) (x2 : Vec Ideal S128x128 .bf16) (x3 : Vec Ideal S128 .f32)
    (x4 : Vec Ideal S128x128 .bf16) (x5 : Vec Ideal S128 .f32) :
    k0_pay1 (F := Ideal) x0 x1 x2 x3 x4 x5
      = layer (truncf .bf16 (maximumf (layer (truncf .bf16 (addf x0 x1) Facts₀.bitsLt_bf16_f32) x2 x3)
          (broadcast S5000x128 (Scalar.ofBits (F := Ideal) .f32 0x00000000#32))) Facts₀.bitsLt_bf16_f32) x4 x5 := by
  unfold k0_pay1 layer
  simp only [shapeCast_self]

/-- The body's stored value at row `p`, column `q` of the block. -/
theorem pay_apply (x0 x1 : Vec Ideal S5000x128 .f32) (x2 : Vec Ideal S128x128 .bf16) (x3 : Vec Ideal S128 .f32)
    (x4 : Vec Ideal S128x128 .bf16) (x5 : Vec Ideal S128 .f32) (p : Fin 5000) (q : Fin 128) :
    k0_pay1 (F := Ideal) x0 x1 x2 x3 x4 x5 (ix2 p q)
      = (∑ k : Fin 128, max ((∑ j : Fin 128, (x0 (ix2 p j) + x1 (ix2 p j)) * x2 (ix2 j k)) + x3 (ix1 k)) 0 * x4 (ix2 k q)) + x5 (ix1 q) := by
  rw [pay_eq, layer_apply]
  refine congrArg (· + x5 (ix1 q)) (Finset.sum_congr rfl fun k _ => ?_)
  rw [truncf_apply, maximumf_apply, layer_apply, broadcast_apply]
  have hz : Scalar.ofBits (F := Ideal) .f32 0x00000000#32 = (0 : EReal) := Ideal.ofBits_zero_f32
  rw [hz]
  refine congrArg (fun z => max (z + x3 (ix1 k)) 0 * x4 (ix2 k q)) (Finset.sum_congr rfl fun j _ => ?_)
  rw [truncf_apply, addf_apply]

end Cert.KernelIdeal.Body

end
-- ==== Proof.MlpSpec.lean ====
/-
  The function both programs compute, stated once over the argument arrays.

  A graph layer over 100000 nodes with 128 features: every node's feature row `h r` (its own features plus the sum of
  its in-neighbours' features) goes through a two-layer perceptron,
      out r q = (∑ k, max ((∑ j, h r j · W1 j k) + b1 k) 0 · W2 k q) + b2 q ,
  on the extended reals. Nothing here depends on a program: the summed row `h` is a parameter, so the neighbour
  aggregation (a gather followed by a scatter-add over the edge list) is never opened.
-/
import Idealize.ShloMosaic.PureOps.Ideal
import Idealize.ShloMosaic.Lib.ValueIdx

noncomputable section

open scoped BigOperators

namespace Cert.GinMlp

open Idealize.ShloMosaic Idealize.ShloMosaic.ValueIdx

/-- Node features: 100000 rows of 128. -/
abbrev Nodes : Shape := ⟨2, ![100000, 128]⟩
/-- A weight matrix, 128 by 128. -/
abbrev Mat : Shape := ⟨2, ![128, 128]⟩
/-- A bias row of 128. -/
abbrev Bias : Shape := ⟨1, ![128]⟩

/-- One dense layer at node `r`, output feature `k`: the row of `h` against column `k` of `w`, plus the bias. -/
def dense (h : Nodes.Idx → EReal) (w : Mat.Idx → EReal) (b : Bias.Idx → EReal) (r : Fin 100000) (k : Fin 128) : EReal :=
  (∑ j : Fin 128, h (ix2 r j) * w (ix2 j k)) + b (ix1 k)

/-- The perceptron's result at node `r`, feature `q`: the rectified first layer through the second. -/
def mlpAt (h : Nodes.Idx → EReal) (w1 : Mat.Idx → EReal) (b1 : Bias.Idx → EReal) (w2 : Mat.Idx → EReal) (b2 : Bias.Idx → EReal)
    (r : Fin 100000) (q : Fin 128) : EReal :=
  (∑ k : Fin 128, max (dense h w1 b1 r k) 0 * w2 (ix2 k q)) + b2 (ix1 q)

/-- The whole result array. -/
def mlp (h : Nodes.Idx → EReal) (w1 : Mat.Idx → EReal) (b1 : Bias.Idx → EReal) (w2 : Mat.Idx → EReal) (b2 : Bias.Idx → EReal) :
    Nodes.Idx → EReal :=
  fun i => mlpAt h w1 b1 w2 b2 (i 0) (i 1)

theorem mlp_ix2 (h : Nodes.Idx → EReal) (w1 : Mat.Idx → EReal) (b1 : Bias.Idx → EReal) (w2 : Mat.Idx → EReal) (b2 : Bias.Idx → EReal)
    (r : Fin 100000) (q : Fin 128) : mlp h w1 b1 w2 b2 (ix2 r q) = mlpAt h w1 b1 w2 b2 r q := rfl

/-- The result at a node depends only on that node's row of `h`. -/
theorem mlpAt_congr (h h' : Nodes.Idx → EReal) (w1 : Mat.Idx → EReal) (b1 : Bias.Idx → EReal) (w2 : Mat.Idx → EReal) (b2 : Bias.Idx → EReal)
    (r : Fin 100000) (q : Fin 128) (hr : ∀ j : Fin 128, h (ix2 r j) = h' (ix2 r j)) :
    mlpAt h w1 b1 w2 b2 r q = mlpAt h' w1 b1 w2 b2 r q := by
  unfold mlpAt dense
  refine congrArg (· + b2 (ix1 q)) (Finset.sum_congr rfl fun k _ => ?_)
  refine congrArg (fun z => max (z + b1 (ix1 k)) 0 * w2 (ix2 k q)) (Finset.sum_congr rfl fun j _ => ?_)
  rw [hr j]

end Cert.GinMlp

end
-- ==== Proof.KernelArray.lean ====
/-
  From the kernel's blocks to its whole result array.

  The grid has 20 points; point `t` works on node rows `5000·t … 5000·t + 4999`: it reads those rows of the features
  and of the neighbour sum, the two weight matrices and the two bias rows whole, and writes back those rows of the
  result. So what point `t` writes back is rows `5000·t …` of ONE function of the arrays the region finds — the
  perceptron of the specification on the rows `x + agg` — and, the 20 row blocks tiling the 100000 rows, the result
  array ends holding that function.
  Two of the arrays the region reads were written by the host just before it: the weight matrices changed to the narrow
  format, which on extended reals is no change. The neighbour sum is a third; it is kept as ONE named array (`aggFound`), never read through its definition.
-/
import proofs.«110424_j80711025426654_1_alg».proof.Proof.Gen.KernelIdeal.Value
import proofs.«110424_j80711025426654_1_alg».proof.Proof.KernelPayload
import proofs.«110424_j80711025426654_1_alg».proof.Proof.MlpSpec
import Idealize.ShloMosaic.Lib.StableHlo.Run

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.GinMlp (mlp mlpAt dense)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ## One element of a block, from the rows it depends on -/

/-- If the six loaded blocks hold, on row `p`, the arrays' row `r` (and the matrices and bias rows whole), the stored
    value at `(p, q)` is the perceptron at `(r, q)`. -/
theorem block_value (x0 x1 : Vec Ideal S5000x128 .f32) (x2 : Vec Ideal S128x128 .bf16) (x3 : Vec Ideal S128 .f32)
    (x4 : Vec Ideal S128x128 .bf16) (x5 : Vec Ideal S128 .f32)
    (X A : Cert.GinMlp.Nodes.Idx → EReal) (W1 : Cert.GinMlp.Mat.Idx → EReal) (B1 : Cert.GinMlp.Bias.Idx → EReal)
    (W2 : Cert.GinMlp.Mat.Idx → EReal) (B2 : Cert.GinMlp.Bias.Idx → EReal)
    (r : Fin 100000) (p : Fin 5000) (q : Fin 128)
    (h0 : ∀ j : Fin 128, x0 (ix2 p j) = X (ix2 r j)) (h1 : ∀ j : Fin 128, x1 (ix2 p j) = A (ix2 r j))
    (h2 : ∀ j k : Fin 128, x2 (ix2 j k) = W1 (ix2 j k)) (h3 : ∀ k : Fin 128, x3 (ix1 k) = B1 (ix1 k))
    (h4 : ∀ j k : Fin 128, x4 (ix2 j k) = W2 (ix2 j k)) (h5 : ∀ k : Fin 128, x5 (ix1 k) = B2 (ix1 k)) :
    k0_pay1 (F := Ideal) x0 x1 x2 x3 x4 x5 (ix2 p q) = mlpAt (fun i => X i + A i) W1 B1 W2 B2 r q := by
  rw [Cert.KernelIdeal.Body.pay_apply]
  unfold mlpAt dense
  rw [h5 q]
  refine congrArg (· + B2 (ix1 q)) (Finset.sum_congr rfl fun k _ => ?_)
  rw [h4 k q, h3 k]
  refine congrArg (fun z => max (z + B1 (ix1 k)) 0 * W2 (ix2 k q)) (Finset.sum_congr rfl fun j _ => ?_)
  rw [h0 j, h1 j, h2 j k]

/-! ## The arrays the host wrote before the region -/

/-- The first weight matrix as the region finds it: the argument, its format changed. -/
theorem V_w1 (c : Dev nD) : V m c main_v14
    = truncf (F := Ideal) (s := S128x128) (φ := .f32) .bf16 (m ((c : Thread nD τ).loc main_arg2)) Facts₀.bitsLt_bf16_f32 := by
  dsimp only [Gen.V, Gen.hostOps0]; after_results <;> rfl

/-- The second weight matrix likewise. -/
theorem V_w2 (c : Dev nD) : V m c main_v15
    = truncf (F := Ideal) (s := S128x128) (φ := .f32) .bf16 (m ((c : Thread nD τ).loc main_arg4)) Facts₀.bitsLt_bf16_f32 := by
  dsimp only [Gen.V, Gen.hostOps0]; after_results <;> rfl

/-! ## The index maps, decided over the 20 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem t_lt (t : Fin cfg0.N) : t.val < 20 := by
  have h : t.val < cfg0.N := t.isLt
  have hN : cfg0.N = 20 := N_0
  omega

/-! ## The neighbour sum, as one array

The array the second window stages is the host's scatter-add of the gathered rows. Nothing below depends on what it
holds, only on its being the same array at every point, so it gets a name and its definition stays closed. -/

/-- The neighbour sum as the region finds it: the array the second window stages. -/
def aggFound (c : Dev nD) : S100000x128.Idx → EReal := V m c (Pipeline.arrRef spec0 (1 : Fin cfg0.W))

/-- It is the host's result buffer `main_v13`. -/
theorem aggFound_eq (c : Dev nD) : aggFound m c = V m c main_v13 := rfl

/-! ## The input blocks as rows of the arrays

An element of a window's block at point `t` sits in the array at block index × block size + its coordinate in the
block, on each axis; with the index maps decided above that is row `5000·t + p` for the two row-blocked windows and
the element's own position for the four windows that hold their whole array. -/

/-- The features' block at point `t`: rows `5000·t …` of the argument. -/
theorem feat_block (c : Dev nD) (t : Fin cfg0.N) (y : S5000x128.Idx) (i : S100000x128.Idx)
    (hi0 : (i 0).val = 5000 * t.val + (y 0).val) (hi1 : (i 1).val = (y 1).val) :
    (iblk m c 0 t : Vec Ideal S5000x128 .f32) y = (m ((c : Thread nD τ).loc main_arg0) : S100000x128.Idx → EReal) i := by
  obtain ⟨e0, e1, -⟩ := idx_facts t
  have he : ((cfg0.win 0).blk t).view.emb y = i := funext fun a => Fin.ext (by
    match a with
    | ⟨0, _⟩ => show win0_0.index t 0 * 5000 + 1 * (y 0).val = (i 0).val; rw [e0, hi0]; omega
    | ⟨1, _⟩ => show win0_0.index t 1 * 128 + 1 * (y 1).val = (i 1).val; rw [e1, hi1]; omega)
  show V m c main_arg0 (((cfg0.win 0).blk t).view.emb y) = _
  rw [he, V_main_arg0]

/-- The second window's block at point `t`, of ANY array: its rows `5000·t …`. -/
theorem rows_of (A : S100000x128.Idx → EReal) (t : Fin cfg0.N) (y : S5000x128.Idx) (i : S100000x128.Idx)
    (hi0 : (i 0).val = 5000 * t.val + (y 0).val) (hi1 : (i 1).val = (y 1).val) :
    ((cfg0.win 1).blk t).view.read (Elt Ideal) A y = A i := by
  obtain ⟨-, -, e0, e1, -⟩ := idx_facts t
  have he : ((cfg0.win 1).blk t).view.emb y = i := funext fun a => Fin.ext (by
    match a with
    | ⟨0, _⟩ => show win0_1.index t 0 * 5000 + 1 * (y 0).val = (i 0).val; rw [e0, hi0]; omega
    | ⟨1, _⟩ => show win0_1.index t 1 * 128 + 1 * (y 1).val = (i 1).val; rw [e1, hi1]; omega)
  show A (((cfg0.win 1).blk t).view.emb y) = A i
  rw [he]

/-- The second window's block is read off the neighbour sum (as whole functions: nothing is applied to an index). -/
theorem agg_iblk (c : Dev nD) (t : Fin cfg0.N) :
    iblk m c 1 t = ((cfg0.win 1).blk t).view.read (Elt Ideal) (aggFound m c) := rfl

/-- The neighbour sum's block at point `t`: rows `5000·t …` of `aggFound`. -/
theorem agg_block (c : Dev nD) (t : Fin cfg0.N) (y : S5000x128.Idx) (i : S100000x128.Idx)
    (hi0 : (i 0).val = 5000 * t.val + (y 0).val) (hi1 : (i 1).val = (y 1).val) :
    (iblk m c 1 t : Vec Ideal S5000x128 .f32) y = aggFound m c i := by
  rw [agg_iblk]
  exact rows_of (aggFound m c) t y i hi0 hi1

/-- The first weight matrix's block at every point: the whole argument. -/
theorem w1_block (c : Dev nD) (t : Fin cfg0.N) (y : S128x128.Idx) :
    (iblk m c 2 t : Vec Ideal S128x128 .bf16) y = (m ((c : Thread nD τ).loc main_arg2) : S128x128.Idx → EReal) y := by
  obtain ⟨-, -, -, -, e0, e1, -⟩ := idx_facts t
  have he : ((cfg0.win 2).blk t).view.emb y = y := funext fun a => Fin.ext (by
    match a with
    | ⟨0, _⟩ => show win0_2.index t 0 * 128 + 1 * (y 0).val = (y 0).val; rw [e0]; omega
    | ⟨1, _⟩ => show win0_2.index t 1 * 128 + 1 * (y 1).val = (y 1).val; rw [e1]; omega)
  show V m c main_v14 (((cfg0.win 2).blk t).view.emb y) = _
  rw [he, V_w1, truncf_apply]

/-- The first bias row's block at every point: the whole argument. -/
theorem b1_block (c : Dev nD) (t : Fin cfg0.N) (y : S128.Idx) :
    (iblk m c 3 t : Vec Ideal S128 .f32) y = (m ((c : Thread nD τ).loc main_arg3) : S128.Idx → EReal) y := by
  obtain ⟨-, -, -, -, -, -, e0, -⟩ := idx_facts t
  have he : ((cfg0.win 3).blk t).view.emb y = y := funext fun a => Fin.ext (by
    match a with
    | ⟨0, _⟩ => show win0_3.index t 0 * 128 + 1 * (y 0).val = (y 0).val; rw [e0]; omega)
  show V m c main_arg3 (((cfg0.win 3).blk t).view.emb y) = _
  rw [he, V_main_arg3]

/-- The second weight matrix's block at every point: the whole argument. -/
theorem w2_block (c : Dev nD) (t : Fin cfg0.N) (y : S128x128.Idx) :
    (iblk m c 4 t : Vec Ideal S128x128 .bf16) y = (m ((c : Thread nD τ).loc main_arg4) : S128x128.Idx → EReal) y := by
  obtain ⟨-, -, -, -, -, -, -, e0, e1, -⟩ := idx_facts t
  have he : ((cfg0.win 4).blk t).view.emb y = y := funext fun a => Fin.ext (by
    match a with
    | ⟨0, _⟩ => show win0_4.index t 0 * 128 + 1 * (y 0).val = (y 0).val; rw [e0]; omega
    | ⟨1, _⟩ => show win0_4.index t 1 * 128 + 1 * (y 1).val = (y 1).val; rw [e1]; omega)
  show V m c main_v15 (((cfg0.win 4).blk t).view.emb y) = _
  rw [he, V_w2, truncf_apply]

/-- The second bias row's block at every point: the whole argument. -/
theorem b2_block (c : Dev nD) (t : Fin cfg0.N) (y : S128.Idx) :
    (iblk m c 5 t : Vec Ideal S128 .f32) y = (m ((c : Thread nD τ).loc main_arg5) : S128.Idx → EReal) y := by
  obtain ⟨-, -, -, -, -, -, -, -, -, e0, -⟩ := idx_facts t
  have he : ((cfg0.win 5).blk t).view.emb y = y := funext fun a => Fin.ext (by
    match a with
    | ⟨0, _⟩ => show win0_5.index t 0 * 128 + 1 * (y 0).val = (y 0).val; rw [e0]; omega)
  show V m c main_arg5 (((cfg0.win 5).blk t).view.emb y) = _
  rw [he, V_main_arg5]

/-! ## The result array -/

/-- The perceptron on the rows `X + A`. -/
def resultOf (X A : S100000x128.Idx → EReal) (W1 : S128x128.Idx → EReal) (B1 : S128.Idx → EReal)
    (W2 : S128x128.Idx → EReal) (B2 : S128.Idx → EReal) : S100000x128.Idx → EReal :=
  mlp (fun i => X i + A i) W1 B1 W2 B2

/-- What the result array ends holding: the perceptron on the rows `x + agg`, `agg` the neighbour sum the region finds. -/
def result (c : Dev nD) : Buf (Elt Ideal) ((c : Thread nD τ).loc main_v16) :=
  resultOf (m ((c : Thread nD τ).loc main_arg0)) (aggFound m c)
    (m ((c : Thread nD τ).loc main_arg2)) (m ((c : Thread nD τ).loc main_arg3))
    (m ((c : Thread nD τ).loc main_arg4)) (m ((c : Thread nD τ).loc main_arg5))

/-- WHAT POINT `t` WRITES BACK is rows `5000·t …` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S5000x128) hz, View.ld_unit_zero (S := S128x128) hz, View.ld_unit_zero (S := S128) hz1]
  obtain ⟨-, -, -, -, -, -, -, -, -, -, e0, e1⟩ := idx_facts t
  have hN := t_lt t
  funext j
  have hp : (j 0).val < 5000 := (j 0).isLt
  have hq : (j 1).val < 128 := (j 1).isLt
  have hy : (cfg0.win 6).xinj (grid0.coords t) j = ix2 (⟨(j 0).val, hp⟩ : Fin 5000) (⟨(j 1).val, hq⟩ : Fin 128) :=
    funext fun a => Fin.ext (by match a with | ⟨0, _⟩ => rfl | ⟨1, _⟩ => rfl)
  have hi : ((cfg0.win 6).blk t).view.emb j
      = ix2 (⟨5000 * t.val + (j 0).val, by omega⟩ : Fin 100000) (⟨(j 1).val, hq⟩ : Fin 128) :=
    funext fun a => Fin.ext (by
      match a with
      | ⟨0, _⟩ => show win0_6.index t 0 * 5000 + 1 * (j 0).val = 5000 * t.val + (j 0).val; rw [e0]; omega
      | ⟨1, _⟩ => show win0_6.index t 1 * 128 + 1 * (j 1).val = (j 1).val; rw [e1]; omega)
  generalize hR : result m c = R
  show k0_pay1 (F := Ideal) _ _ _ _ _ _ ((cfg0.win 6).xinj (grid0.coords t) j) = R (((cfg0.win 6).blk t).view.emb j)
  rw [hy, hi, ← hR]
  unfold result resultOf
  rw [Cert.GinMlp.mlp_ix2]
  exact block_value _ _ _ _ _ _
    (m ((c : Thread nD τ).loc main_arg0)) (aggFound m c)
    (m ((c : Thread nD τ).loc main_arg2)) (m ((c : Thread nD τ).loc main_arg3))
    (m ((c : Thread nD τ).loc main_arg4)) (m ((c : Thread nD τ).loc main_arg5)) _ _ _
    (fun k => feat_block m c t _ _ rfl rfl) (fun k => agg_block m c t _ _ rfl rfl)
    (fun j k => w1_block m c t _) (fun k => b1_block m c t _) (fun j k => w2_block m c t _) (fun k => b2_block m c t _)

/-- An index of the result array is in point `t`'s block iff its row is among the point's 5000 rows. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Every index of the result array is in some point's block: row `r` in the block of point `r / 5000`. -/
theorem cover (i : S100000x128.Idx) : ∃ t : Fin cfg0.N, (cfg0.win 6).flush t = true ∧ i ∈ ((cfg0.win 6).blk t).view.set := by
  have hr : (i 0).val < 100000 := (i 0).isLt
  have hq : (i 1).val < 128 := (i 1).isLt
  let t : Fin cfg0.N := ⟨(i 0).val / 5000, by rw [show cfg0.N = 20 from N_0]; omega⟩
  obtain ⟨-, -, -, -, -, -, -, -, -, -, e0, e1⟩ := idx_facts t
  refine ⟨t, flush0_6 t, ?_⟩
  rw [mem_blk]
  intro a
  match a with
  | ⟨0, _⟩ =>
    show win0_6.index t 0 * 5000 ≤ (i 0).val ∧ (i 0).val < win0_6.index t 0 * 5000 + 5000
    rw [e0]; show (i 0).val / 5000 * 5000 ≤ (i 0).val ∧ (i 0).val < (i 0).val / 5000 * 5000 + 5000; omega
  | ⟨1, _⟩ =>
    show win0_6.index t 1 * 128 ≤ (i 1).val ∧ (i 1).val < win0_6.index t 1 * 128 + 128
    rw [e1]; omega

/-- THE RESULT ARRAY after the run. -/
theorem final (c : Dev nD) : (dats m 0 c).arrAt 6 cfg0.N = result m c :=
  (dats m 0 c).arrAt_eq_of_cover 6 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

-- From here on the neighbour sum is only a name.
attribute [irreducible] aggFound

end Cert.KernelIdeal.Whole

end
-- ==== Proof.RefValue.lean ====
/-
  The reference, index by index.

  The reference adds `1 · x` to the neighbour sum, multiplies by the first weight matrix, adds the first bias row,
  rectifies, multiplies by the second matrix and adds the second bias row — each matrix product over all 100000 rows at
  once. Read at node `r`, feature `q`, through its stages, this is the perceptron of the specification on the row
  `x r + agg r`: the factor `1` disappears (`1 · a = a` on every extended real, infinite ones included), and a matrix
  product at an element is the sum over the contracted coordinate.
  The neighbour sum (the gather and scatter-add stage) is carried as the stage's own term, unopened.
-/
import proofs.«110424_j80711025426654_1_alg».proof.Proof.Gen.ReferenceIdeal.Read
import proofs.«110424_j80711025426654_1_alg».proof.Proof.MlpSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The word `0x3F800000` is the number one. -/
theorem one_f32 : Ideal.ofBits .f32 0x3F800000#32 = (1 : EReal) :=
  IdealRules.sign_bit.ideal_onePat .f32

/-- The summed row the reference feeds to its first matrix product, at an element: the node's own feature plus its
    neighbour sum. -/
theorem summed_apply (x0 : (⟨S100000x128, .f32⟩ : BufTy).Contents (Elt Ideal)) (x1 : (⟨S2x1600000, .i32⟩ : BufTy).Contents (Elt Ideal))
    (i : S100000x128.Idx) :
    val_main_v16 (F := Ideal) x0 x1 i = x0 i + val_main_v13 (F := Ideal) x0 x1 i := by
  rw [val_main_v16_apply, val_main_v15_apply, val_main_v14_apply, val_main_cst_1_apply]
  simp only [Ideal.addf_def, Ideal.mulf_def, Ideal.ofBits_def, one_f32, one_mul]

/-- The rectifier's zero, at an element. -/
theorem relu_zero_apply (i : S100000x128.Idx) : val_main_call0_v0 (F := Ideal) i = (0 : EReal) := by
  rw [val_main_call0_v0_apply, val_main_call0_cst_apply]
  simp only [Ideal.ofBits_def, Ideal.ofBits_zero_f32]

/-- A bias row broadcast over the nodes, at an element: the bias at the element's feature. -/
theorem bias1_apply (x3 : (⟨S128, .f32⟩ : BufTy).Contents (Elt Ideal)) (r : Fin 100000) (q : Fin 128) :
    val_main_v19 (F := Ideal) x3 (ix2 r q) = x3 (ix1 q) := by
  rw [val_main_v19_apply, val_main_v18_apply]
  exact congrArg x3 (funext fun a => Fin.ext (by match a with | ⟨0, _⟩ => rfl))
theorem bias2_apply (x5 : (⟨S128, .f32⟩ : BufTy).Contents (Elt Ideal)) (r : Fin 100000) (q : Fin 128) :
    val_main_v24 (F := Ideal) x5 (ix2 r q) = x5 (ix1 q) := by
  rw [val_main_v24_apply, val_main_v23_apply]
  exact congrArg x5 (funext fun a => Fin.ext (by match a with | ⟨0, _⟩ => rfl))

theorem lidx17 (r : Fin 100000) (q k : Fin 128) : lidx_main_v17 (ix2 r q) k = ix2 r k :=
  funext fun a => Fin.ext (by match a with | ⟨0, _⟩ => rfl | ⟨1, _⟩ => rfl)
theorem ridx17 (r : Fin 100000) (q k : Fin 128) : ridx_main_v17 (ix2 r q) k = ix2 k q :=
  funext fun a => Fin.ext (by match a with | ⟨0, _⟩ => rfl | ⟨1, _⟩ => rfl)
theorem lidx22 (r : Fin 100000) (q k : Fin 128) : lidx_main_v22 (ix2 r q) k = ix2 r k :=
  funext fun a => Fin.ext (by match a with | ⟨0, _⟩ => rfl | ⟨1, _⟩ => rfl)
theorem ridx22 (r : Fin 100000) (q k : Fin 128) : ridx_main_v22 (ix2 r q) k = ix2 k q :=
  funext fun a => Fin.ext (by match a with | ⟨0, _⟩ => rfl | ⟨1, _⟩ => rfl)

/-- The rectified first layer at node `r`, hidden feature `k`. -/
theorem hidden_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (r : Fin 100000) (k : Fin 128) :
    val_main_v21 (F := Ideal) x0 x1 x2 x3 (ix2 r k)
      = max (Cert.GinMlp.dense (fun i => x0 i + val_main_v13 (F := Ideal) x0 x1 i) x2 x3 r k) 0 := by
  rw [val_main_v21_apply, val_main_v20_apply, val_main_v17_apply, bias1_apply, relu_zero_apply]
  simp only [Ideal.addf_def, Ideal.maximumf_def]
  unfold Cert.GinMlp.dense
  refine congrArg (fun z => max (z + x3 (ix1 k)) 0) (Finset.sum_congr rfl fun j _ => ?_)
  rw [lidx17, ridx17, summed_apply]

/-- THE REFERENCE'S RESULT is the perceptron of the specification on the rows `x + agg`. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v25 (F := Ideal) x0 x1 x2 x3 x4 x5
      = Cert.GinMlp.mlp (fun i => x0 i + val_main_v13 (F := Ideal) x0 x1 i) x2 x3 x4 x5 := by
  funext i
  obtain ⟨r, q, rfl⟩ : ∃ (r : Fin 100000) (q : Fin 128), i = ix2 r q := ⟨i 0, i 1, eq_ix2 i⟩
  rw [Cert.GinMlp.mlp_ix2, val_main_v25_apply, val_main_v22_apply, bias2_apply]
  simp only [Ideal.addf_def]
  unfold Cert.GinMlp.mlpAt
  refine congrArg (· + x5 (ix1 q)) (Finset.sum_congr rfl fun k _ => ?_)
  rw [lidx22, ridx22, hidden_apply]

end Cert.ReferenceIdeal.RefValue

end
-- ==== Proof.lean ====
/-
  A graph layer on 100000 nodes with 128 features: every node adds the features of its in-neighbours to its own and
  sends the sum through a two-layer perceptron,
      out r q = (∑ k, max ((∑ j, (x r j + agg r j) · W1 j k) + b1 k) 0 · W2 k q) + b2 q .
  The kernel computes the neighbour sum `agg` on the host (a gather along the edge list followed by a scatter-add) and
  the perceptron in a pipeline over 20 blocks of 5000 node rows, with the operands of each matrix product rounded to a
  narrow format; the reference computes the same neighbour sum by the same host operations, writes the node's own term
  as `1 · x`, and takes each matrix product over all rows at once.

  On the extended reals the two are one function:
  * a change of float format is the identity, so the narrow-format operands are the operands;
  * a matrix product into a zero accumulator, and the reference's matrix product, are at each element the sum over the
    contracted coordinate; the bias rows are broadcast over the rows on both sides;
  * `1 · a = a` for every extended real, the infinite ones included;
  * row `r` of the result depends only on row `r` of `x + agg`, so computing it block of rows by block of rows changes
    nothing, and the 20 row blocks tile the 100000 rows.
  No law that needs finite values is used, so the precondition is never opened. The neighbour sum is never opened
  either: both programs apply the same operations to the same arguments, and it is carried as one array.

  The three frames: the two kernels' by their frame runs, the reference's by its run with the result dropped. The
  idealization rewrote no operation, so `preserves` is `True`.
-/
import proofs.«110424_j80711025426654_1_alg».proof.Defs
import proofs.«110424_j80711025426654_1_alg».proof.Proof.Gen.Kernel
import proofs.«110424_j80711025426654_1_alg».proof.Proof.Gen.Kernel.Skeleton
import proofs.«110424_j80711025426654_1_alg».proof.Proof.Gen.Kernel.Launch
import proofs.«110424_j80711025426654_1_alg».proof.Proof.Gen.Kernel.Points
import proofs.«110424_j80711025426654_1_alg».proof.Proof.Gen.Kernel.Frame
import proofs.«110424_j80711025426654_1_alg».proof.Proof.Gen.KernelIdeal
import proofs.«110424_j80711025426654_1_alg».proof.Proof.Gen.KernelIdeal.Skeleton
import proofs.«110424_j80711025426654_1_alg».proof.Proof.Gen.KernelIdeal.Launch
import proofs.«110424_j80711025426654_1_alg».proof.Proof.Gen.KernelIdeal.Points
import proofs.«110424_j80711025426654_1_alg».proof.Proof.Gen.KernelIdeal.Frame
import proofs.«110424_j80711025426654_1_alg».proof.Proof.Gen.ReferenceIdeal
import proofs.«110424_j80711025426654_1_alg».proof.Proof.Gen.Pre_finite_inputs
import proofs.«110424_j80711025426654_1_alg».proof.Proof.Gen.KernelIdeal.Value
import proofs.«110424_j80711025426654_1_alg».proof.Proof.Gen.ReferenceIdeal.Run
import proofs.«110424_j80711025426654_1_alg».proof.Proof.Gen.ReferenceIdeal.Read
import proofs.«110424_j80711025426654_1_alg».proof.Proof.KernelArray
import proofs.«110424_j80711025426654_1_alg».proof.Proof.RefValue
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo

/-- The neighbour sum the kernel's region finds is the reference's neighbour-sum stage at the same arguments: the two
    programs' host operations up to it are the same operations (slices of the edge list, the wrap of negative
    indices, the gather, the scatter-add into zeros), so the two terms are one. -/
theorem agg_same (m : (ℓ : Loc Cert.KernelIdeal.nD Cert.KernelIdeal.τ Cert.KernelIdeal.sig) → Buf (Elt Ideal) ℓ) (c : Dev Cert.KernelIdeal.nD) :
    Cert.KernelIdeal.Whole.aggFound m c
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [Cert.KernelIdeal.Whole.aggFound_eq]
  dsimp only [Cert.KernelIdeal.Gen.V, Cert.KernelIdeal.Gen.hostOps0]
  after_results <;> rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the perceptron of the rows `x + agg`: the kernel's by its blocks
    (`Whole.run`), the reference's by its stages read index by index (`RefValue.result_eq`), at arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v25_eq, Cert.ReferenceIdeal.RefValue.result_eq, a0, a1, a2, a3, a4, a5]
  unfold Cert.KernelIdeal.Whole.result Cert.KernelIdeal.Whole.resultOf
  dsimp only
  rw [agg_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
